-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x1001 : Shape := ⟨2, ![262144, 1001]⟩
abbrev S262144 : Shape := ⟨1, ![262144]⟩
abbrev S_ : Shape := ⟨0, ![]⟩

class Facts : Prop where
  bcast_S_S262144x1001 : S_.BroadcastsInDim S262144x1001 (![] : Fin 0 → Fin S262144x1001.rank)
  reducesTo_S262144x1001_S_d0_1 : S262144x1001.ReducesTo [0, 1] S_
  h_S_ : 0 < S_.numel

variable [Facts]

def fn {F : FTy → Type} [FloatOps F] (main_arg0 : FVec F S262144x1001 .f32) (main_arg1 : IVec S262144 32) : IVec S_ 1 :=
  let main_v0 : FVec F S262144x1001 .f32 := Host.absf main_arg0
  let main_cst : FVec F S_ .f32 := constant S_ .f32 0x7F800000#32
  let main_v1 : FVec F S262144x1001 .f32 := broadcastInDim S262144x1001 ![] bcast_S_S262144x1001 main_cst
  let main_v2 : IVec S262144x1001 1 := cmpf .olt main_v0 main_v1
  let main_c : IVec S_ 1 := constantI S_ 1 1#1
  let main_v3 : IVec S_ 1 := (fun x v => Host.reduce IntOp.andi x v reducesTo_S262144x1001_S_d0_1 h_S_) main_v2 main_c
  main_v3
-- ==== Kernel.lean ====
abbrev S262144x1001 : Shape := ⟨2, ![262144, 1001]⟩
abbrev S262144 : Shape := ⟨1, ![262144]⟩
abbrev S2x8x128 : Shape := ⟨3, ![2, 8, 128]⟩
abbrev S1024x1001 : Shape := ⟨2, ![1024, 1001]⟩
abbrev S1x8x128 : Shape := ⟨3, ![1, 8, 128]⟩
abbrev S8x128 : Shape := ⟨2, ![8, 128]⟩
abbrev S1024 : Shape := ⟨1, ![1024]⟩
abbrev S1024x1 : Shape := ⟨2, ![1024, 1]⟩
abbrev S1 : Shape := ⟨1, ![1]⟩
abbrev S1x1 : Shape := ⟨2, ![1, 1]⟩
abbrev S1x1x1 : Shape := ⟨3, ![1, 1, 1]⟩
abbrev S2x1x1 : Shape := ⟨3, ![2, 1, 1]⟩
abbrev S2 : Shape := ⟨1, ![2]⟩
abbrev S_ : Shape := ⟨0, ![]⟩

abbrev nBuf : Space → Nat
  | .hbm => 7
  | .vmem => 5
  | .smem => 0
  | _ => 0

abbrev bufTy : (tb : Table) → Fin (tcTables nBuf tb) → BufTy
  | .hbm, ⟨0, _⟩ => ⟨S262144x1001, .f32⟩
  | .hbm, ⟨1, _⟩ => ⟨S262144, .i32⟩
  | .hbm, ⟨2, _⟩ => ⟨S2x8x128, .f32⟩
  | .hbm, ⟨3, _⟩ => ⟨S2x1x1, .f32⟩
  | .hbm, ⟨4, _⟩ => ⟨S2, .f32⟩
  | .hbm, ⟨5, _⟩ => ⟨S_, .f32⟩
  | .hbm, ⟨6, _⟩ => ⟨S_, .f32⟩
  | .local _ .vmem, ⟨0, _⟩ => ⟨S1024x1001, .f32⟩
  | .local _ .vmem, ⟨1, _⟩ => ⟨S1024x1001, .f32⟩
  | .local _ .vmem, ⟨2, _⟩ => ⟨S1x8x128, .f32⟩
  | .local _ .vmem, ⟨3, _⟩ => ⟨S1x8x128, .f32⟩
  | .local _ .vmem, ⟨4, _⟩ => ⟨S8x128, .f32⟩
  | _, _ => ⟨S262144x1001, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 128], ![false, false]⟩

def k0_cond2 (i : grid0.Coords) : BitVec 1 :=
  let arg1 : BitVec 32 := BitVec.ofNat 32 (i 1).val
  let c127_i32 : BitVec 32 := 127#32
  let v29 : BitVec 1 := Scalar.cmpi .eq arg1 c127_i32
  let v30 : BitVec 32 := Scalar.extui v29
  let c0_i32_12 : BitVec 32 := 0#32
  let v31 : BitVec 1 := Scalar.cmpi .ne v30 c0_i32_12
  v31

def cc0_transform_0 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1001 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S1024x1001_S1024x1001_0_0 : ∀ a, (![0, 0] : Fin 2 → Nat) a + S1024x1001.size a ≤ S1024x1001.size a
  h_S1024x1001 : 0 < S1024x1001.numel
  reduces_S1024x1001_S1024 : S1024x1001.Reduces [1] S1024
  shapeCasts_S1024_S1024x1 : S1024.ShapeCasts S1024x1
  broadcasts_S1024x1_S1024x1001 : S1024x1.Broadcasts S1024x1001
  slices_S1024x1001_o0_1000_S1024x1 : S1024x1001.Slices ![0, 1000] S1024x1
  reduces_S1024x1_S1 : S1024x1.Reduces [0] S1
  shapeCasts_S1_S1x1 : S1.ShapeCasts S1x1
  inb_S8x128_S1x1_0_0 : ∀ a, (![0, 0] : Fin 2 → Nat) a + S1x1.size a ≤ S8x128.size a
  h_S1x1 : 0 < S1x1.numel
  shapeCasts_S1x1_S1x1 : S1x1.ShapeCasts S1x1
  shapeCasts_S1x1_S1x1x1 : S1x1.ShapeCasts S1x1x1
  broadcasts_S1x1x1_S1x8x128 : S1x1x1.Broadcasts S1x8x128
  inb_S1x8x128_S1x8x128_0_0_0 : ∀ a, (![0, 0, 0] : Fin 3 → Nat) a + S1x8x128.size a ≤ S1x8x128.size a
  h_S1x8x128 : 0 < S1x8x128.numel
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1001.size a ≤ S262144x1001.size a
  hwx0_0 : ∀ i : grid0.Coords, EltTy.bits .f32 = 32 ∨ (Rect.block (s := S262144x1001) S1024x1001.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x128.size a ≤ S2x8x128.size a
  hwx0_1 : ∀ i : grid0.Coords, EltTy.bits .f32 = 32 ∨ (Rect.block (s := S2x8x128) S1x8x128.size (cc0_transform_1 i) (hinb0_1 i)).WholeWords (EltTy.packing .f32)

variable [Facts₀]

abbrev win0_0 : Pipeline.Window sig grid0 :=
  Pipeline.Window.ofSpec (Memref.whole main_arg0) S1024x1001.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x8x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S262144x1001 : Shape := ⟨2, ![262144, 1001]⟩
abbrev S262144 : Shape := ⟨1, ![262144]⟩
abbrev S_ : Shape := ⟨0, ![]⟩
abbrev S262144x1 : Shape := ⟨2, ![262144, 1]⟩

abbrev nBuf : Space → Nat
  | .hbm => 36
  | .vmem => 0
  | .smem => 0
  | _ => 0

abbrev bufTy : (tb : Table) → Fin (tcTables nBuf tb) → BufTy
  | .hbm, ⟨0, _⟩ => ⟨S262144x1001, .f32⟩
  | .hbm, ⟨1, _⟩ => ⟨S262144, .i32⟩
  | .hbm, ⟨2, _⟩ => ⟨S_, .f32⟩
  | .hbm, ⟨3, _⟩ => ⟨S262144, .f32⟩
  | .hbm, ⟨4, _⟩ => ⟨S_, .f32⟩
  | .hbm, ⟨5, _⟩ => ⟨S262144, .f32⟩
  | .hbm, ⟨6, _⟩ => ⟨S262144, .f32⟩
  | .hbm, ⟨7, _⟩ => ⟨S262144x1, .f32⟩
  | .hbm, ⟨8, _⟩ => ⟨S262144x1001, .f32⟩
  | .hbm, ⟨9, _⟩ => ⟨S262144x1001, .f32⟩
  | .hbm, ⟨10, _⟩ => ⟨S262144x1001, .f32⟩
  | .hbm, ⟨11, _⟩ => ⟨S_, .f32⟩
  | .hbm, ⟨12, _⟩ => ⟨S262144, .f32⟩
  | .hbm, ⟨13, _⟩ => ⟨S262144x1, .f32⟩
  | .hbm, ⟨14, _⟩ => ⟨S262144x1001, .f32⟩
  | .hbm, ⟨15, _⟩ => ⟨S262144x1001, .f32⟩
  | .hbm, ⟨16, _⟩ => ⟨S262144x1, .f32⟩
  | .hbm, ⟨17, _⟩ => ⟨S262144, .f32⟩
  | .hbm, ⟨18, _⟩ => ⟨S_, .f32⟩
  | .hbm, ⟨19, _⟩ => ⟨S262144, .f32⟩
  | .hbm, ⟨20, _⟩ => ⟨S262144, .i1⟩
  | .hbm, ⟨21, _⟩ => ⟨S_, .f32⟩
  | .hbm, ⟨22, _⟩ => ⟨S_, .f32⟩
  | .hbm, ⟨23, _⟩ => ⟨S262144, .f32⟩
  | .hbm, ⟨24, _⟩ => ⟨S262144, .f32⟩
  | .hbm, ⟨25, _⟩ => ⟨S262144, .f32⟩
  | .hbm, ⟨26, _⟩ => ⟨S262144, .f32⟩
  | .hbm, ⟨27, _⟩ => ⟨S262144, .f32⟩
  | .hbm, ⟨28, _⟩ => ⟨S_, .f32⟩
  | .hbm, ⟨29, _⟩ => ⟨S262144, .f32⟩
  | .hbm, ⟨30, _⟩ => ⟨S262144, .f32⟩
  | .hbm, ⟨31, _⟩ => ⟨S262144, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | _, _ => ⟨S262144x1001, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_cst_4 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩

abbrev nD : Nat := 1
abbrev τ : Topo := Topo.v7x

variable {F : FTy → Type} [FloatOps F]

class Facts₀ : Prop where
  reducesTo_S262144x1001_S262144_d1 : S262144x1001.ReducesTo [1] S262144
  h_S_ : 0 < S_.numel
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x1001_0_1 : S262144x1.BroadcastsInDim S262144x1001 (![0, 1] : Fin 2 → Fin S262144x1001.rank)
  slices_S262144x1001_S262144x1_0_1000 : S262144x1001.Slices ![0, 1000] S262144x1
  shapeCasts_S262144x1_S262144 : S262144x1.ShapeCasts S262144
  reducesTo_S262144_S_d0 : S262144.ReducesTo [0] S_

variable [Facts₀]

class Facts : Prop extends Facts₀ where

variable [Facts]
-- ==== Proof.Spec.lean ====
/-
  The loss as mathematics, on the extended reals. For one row `x` of 1001 scores: the greatest score `M` (the fold
  of `max` from −∞), the exponentials `e k = exp (x k − M)`, the probability of the last class
  `p = e 1000 / ∑ e`, the saturation guard `w` (a fixed constant just below one where `p = 1`, else one), and the
  row's term `log (1 − p · w)`. The loss is the mean of the 262144 rows' terms.

  Two arrangements of that mean meet here. One adds all the terms, from zero, and divides by 262144. The other walks
  256 blocks of 1024 rows: a running sum is reset at blocks 0 and 128, each block's 1024 terms are added to it, the two
  running sums reached at blocks 127 and 255 are each multiplied by 2⁻¹⁸, and the two products are added, from zero.
  They agree on every extended real: addition is commutative and associative there, 2⁻¹⁸ is a nonnegative finite
  factor, which distributes over every sum (infinite terms included), and division by 262144 = 2¹⁸ is that product.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-! ## One row -/

/-- The greatest entry of a row, folded from −∞. -/
def rowMax (x : Fin 1001 → EReal) : EReal :=
  (Finset.univ : Finset (Fin 1001)).fold max (Ideal.ofBits .f32 0xFF800000#32) x

/-- The shifted exponential of entry `k`. -/
def rowExp (x : Fin 1001 → EReal) (k : Fin 1001) : EReal := Ideal.exp (x k - rowMax x)

/-- The softmax probability of the last class. -/
def rowProb (x : Fin 1001 → EReal) : EReal := Ideal.div (rowExp x 1000) (∑ k : Fin 1001, rowExp x k)

/-- The saturation guard: just below one where the probability is exactly one, else one. -/
def guard (p : EReal) : EReal :=
  Scalar.select (FloatOps.cmpf (F := Ideal) (φ := .f32) .oeq p (Ideal.ofBits .f32 0x3F800000#32))
    (Ideal.ofBits .f32 0x3F7FFFEF#32) (Ideal.ofBits .f32 0x3F800000#32)

/-- The row's term of the loss. -/
def rowLoss (x : Fin 1001 → EReal) : EReal :=
  Ideal.log (Ideal.ofBits .f32 0x3F800000#32 - rowProb x * guard (rowProb x))

/-- Row `n` of a 262144 × 1001 array (zero past the last row, which nothing reads). -/
def rowAt (X : (⟨2, ![262144, 1001]⟩ : Shape).Idx → EReal) (n : ℕ) : Fin 1001 → EReal :=
  fun k => if h : n < 262144 then X (ix2 ⟨n, h⟩ k) else 0

/-- The term of row `n`. -/
def term (X : (⟨2, ![262144, 1001]⟩ : Shape).Idx → EReal) (n : ℕ) : EReal := rowLoss (rowAt X n)

theorem rowAt_of_lt (X : (⟨2, ![262144, 1001]⟩ : Shape).Idx → EReal) (n : ℕ) (h : n < 262144) :
    rowAt X n = fun k => X (ix2 ⟨n, h⟩ k) := by
  funext k; unfold rowAt; rw [dif_pos h]

/-- The mean of the rows' terms: their sum from zero, divided by the number of rows. -/
def mean (X : (⟨2, ![262144, 1001]⟩ : Shape).Idx → EReal) : EReal :=
  Ideal.div (0 + ∑ n ∈ Finset.range 262144, term X n) ((262144 : ℝ) : EReal)

/-! ## Sums of a sequence in blocks -/

section Blocks

variable {M : Type*} [AddCommMonoid M]

/-- A sum over `a · b` consecutive terms is the sum over `a` blocks of `b` consecutive terms. -/
theorem sum_range_blocks (f : ℕ → M) (a b : ℕ) :
    ∑ n ∈ Finset.range (a * b), f n = ∑ i ∈ Finset.range a, ∑ j ∈ Finset.range b, f (b * i + j) := by
  induction a with
  | zero => simp
  | succ a ih =>
    rw [Finset.sum_range_succ, ← ih, Nat.succ_mul, Finset.sum_range_add, Nat.mul_comm a b]

/-- A sum over the rank-1 index set of extent `n` is the sum over the numbers below `n`. -/
theorem sum_idx1 (n : ℕ) (f : ℕ → M) :
    ∑ j : (⟨1, ![n]⟩ : Shape).Idx, f (j 0).val = ∑ k ∈ Finset.range n, f k := by
  rw [← Fin.sum_univ_eq_sum_range f n]
  exact Fintype.sum_equiv
    { toFun := fun j => (j 0 : Fin n), invFun := fun r => ix1 r,
      left_inv := fun j => (eq_ix1 j).symm, right_inv := fun r => rfl } _ _ (fun j => rfl)

end Blocks

/-- The sum of block `t`: its `b` consecutive terms. -/
def blockSum (L : ℕ → EReal) (b t : ℕ) : EReal := ∑ r : Fin b, L (b * t + r.val)

theorem blockSum_eq_range (L : ℕ → EReal) (b t : ℕ) :
    blockSum L b t = ∑ r ∈ Finset.range b, L (b * t + r) := by
  unfold blockSum
  exact Fin.sum_univ_eq_sum_range (fun r => L (b * t + r)) b

/-- The running sum after block `n`: reset to `z + P n` at the blocks divisible by `q`, else the previous running sum
    plus `P n`. -/
def running (z : EReal) (q : ℕ) (P : ℕ → EReal) : ℕ → EReal
  | 0 => z + P 0
  | n + 1 => if (n + 1) % q = 0 then z + P (n + 1) else running z q P n + P (n + 1)

theorem running_reset (z : EReal) (q : ℕ) (P : ℕ → EReal) (n : ℕ) (h : n % q = 0) :
    running z q P n = z + P n := by
  cases n with
  | zero => rfl
  | succ n => exact if_pos h

theorem running_step (z : EReal) (q : ℕ) (P : ℕ → EReal) (n : ℕ) (h : ¬ n % q = 0) :
    running z q P n = running z q P (n - 1) + P n := by
  cases n with
  | zero => exact absurd (Nat.zero_mod q) h
  | succ n => exact if_neg h

/-- Inside one group of `q` blocks the running sum is `z` plus the blocks' sums so far. -/
theorem running_closed (z : EReal) (q : ℕ) (P : ℕ → EReal) (c : ℕ) :
    ∀ i, i < q → running z q P (q * c + i) = z + ∑ j ∈ Finset.range (i + 1), P (q * c + j)
  | 0, hq => by
    rw [running_reset z q P _ (by simp), Finset.sum_range_one]
  | i + 1, hq => by
    have hne : ¬ (q * c + (i + 1)) % q = 0 := by
      rw [Nat.mul_add_mod, Nat.mod_eq_of_lt hq]; omega
    rw [running_step z q P _ hne, show q * c + (i + 1) - 1 = q * c + i from by omega,
      running_closed z q P c i (by omega), Finset.sum_range_succ _ (i + 1), add_assoc]

/-! ## The two arrangements of the mean agree -/

/-- A nonnegative finite factor distributes over a finite sum of extended reals. -/
theorem sum_mul_coe (s : Finset ℕ) (f : ℕ → EReal) (κ : ℝ) (hκ : 0 ≤ κ) :
    ∑ i ∈ s, f i * (κ : EReal) = (∑ i ∈ s, f i) * (κ : EReal) := by
  classical
  induction s using Finset.induction_on with
  | empty => simp
  | insert a s ha ih =>
    rw [Finset.sum_insert ha, Finset.sum_insert ha, ih,
      EReal.right_distrib_of_nonneg_of_ne_top (by exact_mod_cast hκ) (EReal.coe_ne_top κ)]

/-- The block-wise arrangement is the plain one: `g` groups of `q` blocks of `b` terms, each group's running sum
    scaled by `κ = 1 / D` and the scaled sums added, against the sum of all `g · q · b` terms divided by `D`. -/
theorem blocks_mean (L : ℕ → EReal) (g q b : ℕ) (hq : 0 < q) (D : ℝ) (hD : 0 < D) :
    (0 : EReal) + ∑ c ∈ Finset.range g, running 0 q (blockSum L b) (q * c + (q - 1)) * ((1 / D : ℝ) : EReal)
      = Ideal.div (0 + ∑ n ∈ Finset.range (g * q * b), L n) (D : EReal) := by
  rw [Ideal.div_coe (ne_of_gt hD), zero_add, zero_add, sum_mul_coe _ _ _ (by positivity)]
  congr 1
  rw [sum_range_blocks, sum_range_blocks]
  refine Finset.sum_congr rfl fun c _ => ?_
  rw [running_closed 0 q _ c (q - 1) (by omega), zero_add, show q - 1 + 1 = q from by omega]
  refine Finset.sum_congr rfl fun i _ => ?_
  rw [blockSum_eq_range]

end Cert.Spec

end
-- ==== Proof.RefValue.lean ====
/-
  The reference, read at an index, is the plain arrangement of the mean: for row `r` its chain of operations — the
  row's greatest entry (a fold of `max` from −∞, then `max` with −∞ once more, which changes nothing), the shifted
  exponentials, their sum from zero, the quotient at the last column, the guard, the logarithm — is the row's term of
  the loss, and the result is the sum of the 262144 terms, from zero, divided by 262144.
-/
import proofs.«138846_j1606317768943_2_alg».proof.Proof.Gen.ReferenceIdeal.Read
import proofs.«138846_j1606317768943_2_alg».proof.Proof.Spec
import Idealize.ShloMosaic.PureOps.Reduce

noncomputable section

namespace Cert.ReferenceIdeal.RefValue

open Cert.ReferenceIdeal Cert.ReferenceIdeal.Gen Cert.ReferenceIdeal.Read Idealize.ShloMosaic
open Idealize.ShloMosaic.ValueIdx Cert.Spec

/-- The pattern of −∞ denotes the least extended real. -/
theorem ofBits_neg_inf : Ideal.ofBits .f32 0xFF800000#32 = (⊥ : EReal) := by simp [Ideal.ofBits, Ideal.ieee]

/-- The pattern of 262144.0 denotes 262144. -/
theorem ofBits_count : Ideal.ofBits .f32 0x48800000#32 = ((262144 : ℝ) : EReal) := by
  simp [Ideal.ofBits, Ideal.ieee, -EReal.coe_mul]; norm_num

variable (X : (⟨S262144x1001, .f32⟩ : BufTy).Contents (Elt Ideal))

/-- The row's greatest entry, as the reference takes it. -/
theorem max_row (r : Fin 262144) :
    val_main_v2 (F := Ideal) X (ix1 r) = rowMax (fun k => X (ix2 r k)) := by
  rw [val_main_v2_apply, val_main_v1_apply, val_main_cst_0_apply]
  unfold val_main_v0
  have hfold := Host.reduce_eq_fold_single (s := S262144x1001) (t := S262144) (a := 1) (u := S_)
    (FloatOps.maximumf (F := Ideal) (φ := .f32)) (X : S262144x1001.Idx → Ideal .f32) (val_main_cst (F := Ideal))
    reducesTo_S262144x1001_S262144_d1 (by decide : S262144x1001.Reduces [1] S262144) h_S_ (ix1 r)
  rw [hfold, val_main_cst_apply]
  show max (Ideal.ofBits .f32 0xFF800000#32) (Finset.fold max (Ideal.ofBits .f32 0xFF800000#32) _ Finset.univ) = _
  rw [ofBits_neg_inf, max_eq_right bot_le]
  unfold rowMax
  rw [ofBits_neg_inf]
  refine congrArg (fun f => Finset.fold max (⊥ : EReal) f Finset.univ) (funext fun k => ?_)
  exact congrArg X (funext fun a => Fin.ext (by match a with | ⟨0, _⟩ => rfl | ⟨1, _⟩ => rfl))

/-- The shifted exponential of entry `(r, k)`. -/
theorem exp_entry (r : Fin 262144) (k : Fin 1001) :
    val_main_v6 (F := Ideal) X (ix2 r k) = rowExp (fun k => X (ix2 r k)) k := by
  rw [val_main_v6_apply, val_main_v5_apply, val_main_v4_apply, val_main_v3_apply]
  rw [show idx_main_v3 (idx_main_v4 (ix2 r k)) = ix1 r from
    funext fun a => Fin.ext (by match a with | ⟨0, _⟩ => rfl)]
  rw [max_row]
  rfl

/-- The row's probability of the last class. -/
theorem prob_row (r : Fin 262144) :
    val_main_v12 (F := Ideal) X (ix1 r) = rowProb (fun k => X (ix2 r k)) := by
  rw [val_main_v12_apply, val_main_v11_apply]
  rw [show idx_main_v11 (idx_main_v12 (ix1 r)) = ix2 r (1000 : Fin 1001) from
    funext fun a => Fin.ext (by match a with | ⟨0, _⟩ => exact Nat.div_one _ | ⟨1, _⟩ => rfl)]
  rw [val_main_v10_apply, val_main_v9_apply, val_main_v8_apply]
  rw [show idx_main_v8 (idx_main_v9 (ix2 r (1000 : Fin 1001))) = ix1 r from
    funext fun a => Fin.ext (by match a with | ⟨0, _⟩ => rfl)]
  rw [val_main_v7_apply, val_main_cst_1_apply, exp_entry]
  unfold rowProb
  show Ideal.div _ (Ideal.ofBits .f32 0x00000000#32 + _) = _
  rw [Ideal.ofBits_zero_f32, zero_add]
  refine congrArg (Ideal.div _) (Finset.sum_congr rfl fun k _ => ?_)
  rw [show idx_main_v7 (ix1 r) k = ix2 r k from
    funext fun a => Fin.ext (by match a with | ⟨0, _⟩ => rfl | ⟨1, _⟩ => rfl)]
  exact exp_entry X r k

/-- The row's term of the loss. -/
theorem term_row (r : Fin 262144) :
    val_main_v20 (F := Ideal) X (ix1 r) = rowLoss (fun k => X (ix2 r k)) := by
  rw [val_main_v20_apply, val_main_v19_apply, val_main_v18_apply, val_main_cst_5_apply, val_main_v17_apply,
    val_main_v16_apply, val_main_v15_apply, val_main_v14_apply, val_main_v13_apply, val_main_cst_2_apply,
    val_main_call0_v0_apply, val_main_cst_3_apply, val_main_call0_v1_apply, val_main_cst_4_apply, prob_row]
  rfl

/-- The reference's result is the mean. -/
theorem result_eq (i : S_.Idx) : val_main_v22 (F := Ideal) X i = mean X := by
  rw [val_main_v22_apply, val_main_v21_apply, val_main_cst_6_apply, val_main_cst_7_apply]
  show Ideal.div (Ideal.ofBits .f32 0x00000000#32 + _) (Ideal.ofBits .f32 0x48800000#32) = _
  rw [Ideal.ofBits_zero_f32, ofBits_count]
  have hs : (∑ j : S262144.Idx, val_main_v20 (F := Ideal) X j) = ∑ n ∈ Finset.range 262144, term X n := by
    rw [← sum_idx1 262144 (term X)]
    refine Finset.sum_congr rfl fun j _ => ?_
    obtain ⟨r, rfl⟩ : ∃ r : Fin 262144, j = ix1 r := ⟨j 0, eq_ix1 j⟩
    rw [term_row]
    show _ = term X r.val
    unfold term
    rw [rowAt_of_lt X _ r.isLt]
  rw [hs]
  rfl

end Cert.ReferenceIdeal.RefValue

end
-- ==== Proof.Payload.lean ====
/-
  The body's arithmetic at an index, on the extended reals. From a 1024 × 1001 block `v` of scores the body takes each
  row's greatest entry, the shifted exponentials, their sum, the last column's quotient, the guard and the logarithm:
  row `r` of the block gives exactly the row's term of the loss. The accumulated cell is then the previous contents
  plus the sum of the block's 1024 terms, and the value written out is the accumulated cell times 2⁻¹⁸, the same at
  every position of the output block.
-/
import proofs.«138846_j1606317768943_2_alg».proof.Proof.Gen.KernelIdeal.Skeleton
import proofs.«138846_j1606317768943_2_alg».proof.Proof.Spec
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx Cert.Spec

/-- The rows' greatest entries. -/
def bMax (v : FVec Ideal S1024x1001 .f32) : FVec Ideal S1024 .f32 :=
  multiReduction .maximumf [1] S1024 v 0xFF800000#32 reduces_S1024x1001_S1024 (.inl rfl) rfl

/-- The shifted exponentials. -/
def bExp (v : FVec Ideal S1024x1001 .f32) : FVec Ideal S1024x1001 .f32 :=
  exp (subf v (broadcastTo S1024x1001 (shapeCast S1024x1 (bMax v) shapeCasts_S1024_S1024x1) broadcasts_S1024x1_S1024x1001))

/-- Their row sums. -/
def bSum (v : FVec Ideal S1024x1001 .f32) : FVec Ideal S1024 .f32 :=
  multiReduction .add [1] S1024 (bExp v) 0x00000000#32 reduces_S1024x1001_S1024 (.inl rfl) rfl

/-- The probability of the last class, row by row. -/
def bProb (v : FVec Ideal S1024x1001 .f32) : FVec Ideal S1024x1 .f32 :=
  divf (extractStridedSlice S1024x1 ![0, 1000] (bExp v) slices_S1024x1001_o0_1000_S1024x1)
    (shapeCast S1024x1 (bSum v) shapeCasts_S1024_S1024x1)

/-- The rows' terms of the loss. -/
def bTerm (v : FVec Ideal S1024x1001 .f32) : FVec Ideal S1024x1 .f32 :=
  log (subf (broadcast S1024x1 (Scalar.ofBits .f32 0x3F800000#32))
    (mulf (bProb v) (select (cmpf .oeq (bProb v) (broadcast S1024x1 (Scalar.ofBits .f32 0x3F800000#32)))
      (broadcast S1024x1 (Scalar.ofBits .f32 0x3F7FFFEF#32)) (broadcast S1024x1 (Scalar.ofBits .f32 0x3F800000#32)))))

/-- The accumulated cell's new contents, in these words. -/
theorem pay2_eq (v3 : FVec Ideal S1024x1001 .f32) (v24 : FVec Ideal S1x1 .f32) :
    k0_pay2 (F := Ideal) v3 v24
      = shapeCast S1x1 (addf v24 (shapeCast S1x1
          (multiReduction .add [0] S1 (bTerm v3) 0x00000000#32 reduces_S1024x1_S1 (.inl rfl) rfl) shapeCasts_S1_S1x1))
          shapeCasts_S1x1_S1x1 := rfl

theorem bMax_apply (v : FVec Ideal S1024x1001 .f32) (r : Fin 1024) :
    bMax v (ix1 r) = rowMax (fun k => v (ix2 r k)) := by
  unfold bMax
  refine (Ideal.multiReduction_maximumf_single v 0xFF800000#32 reduces_S1024x1001_S1024 (.inl rfl) rfl (ix1 r)).trans ?_
  unfold rowMax
  refine congrArg (fun f => Finset.fold max (Ideal.ofBits .f32 0xFF800000#32) f Finset.univ) (funext fun k => ?_)
  exact congrArg v (funext fun a => Fin.ext (by match a with | ⟨0, _⟩ => rfl | ⟨1, _⟩ => rfl))

theorem bExp_apply (v : FVec Ideal S1024x1001 .f32) (r : Fin 1024) (k : Fin 1001) :
    bExp v (ix2 r k) = rowExp (fun k => v (ix2 r k)) k := by
  unfold bExp
  show Ideal.exp (v (ix2 r k) - broadcastTo S1024x1001 _ _ (ix2 r k)) = _
  rw [broadcastTo_apply _ broadcasts_S1024x1_S1024x1001 (ix2 r k) (ix2 r (0 : Fin 1)) (fun a => match a with
      | ⟨0, _⟩ => by show r.val = if (1024 : Nat) = 1 then 0 else r.val; rw [if_neg (by decide)]
      | ⟨1, _⟩ => by show 0 = if (1 : Nat) = 1 then 0 else k.val; rw [if_pos rfl]),
    shapeCast_apply _ shapeCasts_S1024_S1024x1 (ix2 r (0 : Fin 1)) (ix1 r)
      (by rewrite [Shape.rowMajor_val_two, Shape.rowMajor_val_one]; show r.val = r.val * 1 + 0; omega),
    bMax_apply]
  rfl

theorem bSum_apply (v : FVec Ideal S1024x1001 .f32) (r : Fin 1024) :
    bSum v (ix1 r) = ∑ k : Fin 1001, rowExp (fun k => v (ix2 r k)) k := by
  unfold bSum
  refine (Ideal.multiReduction_add_single (bExp v) 0x00000000#32 reduces_S1024x1001_S1024 (.inl rfl) rfl (ix1 r)).trans
    (Finset.sum_congr rfl fun k _ => ?_)
  rw [show reduces_S1024x1001_S1024.lift (ix1 r) k = ix2 r k from
    funext fun a => Fin.ext (by match a with | ⟨0, _⟩ => rfl | ⟨1, _⟩ => rfl)]
  exact bExp_apply v r k

theorem bProb_apply (v : FVec Ideal S1024x1001 .f32) (r : Fin 1024) :
    bProb v (ix2 r (0 : Fin 1)) = rowProb (fun k => v (ix2 r k)) := by
  unfold bProb
  show Ideal.div (extractStridedSlice S1024x1 ![0, 1000] (bExp v) _ (ix2 r (0 : Fin 1)))
    (shapeCast S1024x1 (bSum v) _ (ix2 r (0 : Fin 1))) = _
  rw [extractStridedSlice_apply ![0, 1000] (bExp v) slices_S1024x1001_o0_1000_S1024x1 (ix2 r (0 : Fin 1)) (ix2 r (1000 : Fin 1001))
      (fun a => match a with
        | ⟨0, _⟩ => by show r.val = 0 + r.val; omega
        | ⟨1, _⟩ => by show 1000 = 1000 + 0; rfl),
    shapeCast_apply _ shapeCasts_S1024_S1024x1 (ix2 r (0 : Fin 1)) (ix1 r)
      (by rewrite [Shape.rowMajor_val_two, Shape.rowMajor_val_one]; show r.val = r.val * 1 + 0; omega),
    bExp_apply, bSum_apply]
  rfl

theorem bTerm_apply (v : FVec Ideal S1024x1001 .f32) (r : Fin 1024) :
    bTerm v (ix2 r (0 : Fin 1)) = rowLoss (fun k => v (ix2 r k)) := by
  unfold bTerm
  show Ideal.log (Ideal.ofBits .f32 0x3F800000#32 - bProb v (ix2 r (0 : Fin 1))
    * Scalar.select (FloatOps.cmpf (F := Ideal) (φ := .f32) .oeq (bProb v (ix2 r (0 : Fin 1))) (Ideal.ofBits .f32 0x3F800000#32))
        (Ideal.ofBits .f32 0x3F7FFFEF#32) (Ideal.ofBits .f32 0x3F800000#32)) = _
  rw [bProb_apply]
  rfl

/-- The accumulated cell: its previous contents plus the block's 1024 terms. -/
theorem pay2_apply (v3 : FVec Ideal S1024x1001 .f32) (v24 : FVec Ideal S1x1 .f32) :
    k0_pay2 (F := Ideal) v3 v24 (ix2 (0 : Fin 1) (0 : Fin 1))
      = v24 (ix2 (0 : Fin 1) (0 : Fin 1)) + ∑ r : Fin 1024, rowLoss (fun k => v3 (ix2 r k)) := by
  rw [pay2_eq, shapeCast_self]
  show v24 (ix2 (0 : Fin 1) (0 : Fin 1)) + shapeCast S1x1 _ shapeCasts_S1_S1x1 (ix2 (0 : Fin 1) (0 : Fin 1)) = _
  rw [shapeCast_apply _ shapeCasts_S1_S1x1 (ix2 (0 : Fin 1) (0 : Fin 1)) (ix1 (0 : Fin 1)) rfl]
  refine congrArg (v24 (ix2 (0 : Fin 1) (0 : Fin 1)) + ·) ?_
  refine (Ideal.multiReduction_add_single (bTerm v3) 0x00000000#32 reduces_S1024x1_S1 (.inl rfl) rfl (ix1 (0 : Fin 1))).trans
    (Finset.sum_congr rfl fun r _ => ?_)
  rw [show reduces_S1024x1_S1.lift (ix1 (0 : Fin 1)) r = ix2 r (0 : Fin 1) from
    funext fun a => Fin.ext (by match a with | ⟨0, _⟩ => rfl | ⟨1, _⟩ => rfl)]
  exact bTerm_apply v3 r

/-- The value written out: the accumulated cell times 2⁻¹⁸, at every position. -/
theorem pay3_apply (v32 : FVec Ideal S1x1 .f32) (j : S1x8x128.Idx) :
    k0_pay3 (F := Ideal) v32 j = v32 (ix2 (0 : Fin 1) (0 : Fin 1)) * Ideal.ofBits .f32 0x36800000#32 := by
  unfold k0_pay3
  show broadcastTo S1x8x128 (shapeCast S1x1x1 (mulf v32 (broadcast S1x1 (Scalar.ofBits .f32 0x36800000#32))) shapeCasts_S1x1_S1x1x1)
    broadcasts_S1x1x1_S1x8x128 j = _
  rw [broadcastTo_apply _ broadcasts_S1x1x1_S1x8x128 j (ix3 (0 : Fin 1) (0 : Fin 1) (0 : Fin 1)) (fun a => match a with
      | ⟨0, _⟩ => rfl
      | ⟨1, _⟩ => rfl
      | ⟨2, _⟩ => rfl),
    shapeCast_apply _ shapeCasts_S1x1_S1x1x1 (ix3 (0 : Fin 1) (0 : Fin 1) (0 : Fin 1)) (ix2 (0 : Fin 1) (0 : Fin 1)) rfl]
  rfl

end Cert.KernelIdeal.Payload

end
-- ==== Proof.Pieces.lean ====
/-
  What one run of the body leaves, read as values on the extended reals. The accumulator is an 8 × 128 buffer of which
  only the cell (0, 0) is ever used. At a first block of a group the body zeroes the buffer, reads the cell back (zero)
  and stores zero plus the block's sum of terms; at any other block it stores the cell's previous contents plus the
  block's sum; at a last block of a group it also fills the output block with the new cell times 2⁻¹⁸.
-/
import proofs.«138846_j1606317768943_2_alg».proof.Proof.Gen.KernelIdeal.Frame
import proofs.«138846_j1606317768943_2_alg».proof.Proof.Payload
import Idealize.ShloMosaic.Lib.Pipeline.Value
import Idealize.ShloMosaic.Lib.Tactic

noncomputable section

namespace Cert.KernelIdeal.Pieces

open Cert.KernelIdeal Cert.KernelIdeal.Gen Cert.KernelIdeal.Payload Cert.Spec
open Idealize.ShloMosaic Idealize.ShloMosaic.TcCoe Idealize.ShloMosaic.ValueIdx Idealize.ShloMosaic.Tactic Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

/-- The 1 × 1 rectangle at the origin of the accumulator holds the cell (0, 0). -/
theorem emb00 (inb : ∀ a, (![0, 0] : Fin 2 → Nat) a + S1x1.size a ≤ S8x128.size a) :
    (Rect.unit (s := S8x128) ![0, 0] S1x1.size inb).emb (ix2 (0 : Fin 1) (0 : Fin 1)) = ix2 (0 : Fin 8) (0 : Fin 128) :=
  funext fun a => Fin.ext (by match a with | ⟨0, _⟩ => rfl | ⟨1, _⟩ => rfl)

/-- Under the last store, the stored payload. -/
theorem canon_head {s : Shape} {e : EltTy} (r : Rect s) (w : r.shape.Idx → Elt Ideal e)
    (L : List (View.Piece (Elt Ideal) s e)) (x : r.shape.Idx) (y : s.Idx) (hy : r.emb x = y) :
    View.canon (⟨r, w⟩ :: L) y = w x := hy ▸ View.canon_cons_emb r w L x

theorem read_writes_head {sig : RefSig} {κ : Kind} {sp : Space} {s : Shape} {e : EltTy} (v : View sig κ sp s e)
    (f : v.ty.Contents (Elt Ideal)) (r : Rect s) (w : r.shape.Idx → Elt Ideal e)
    (L : List (View.Piece (Elt Ideal) s e)) (x : r.shape.Idx) (y : s.Idx) (hy : r.emb x = y) :
    v.read (Elt Ideal) (v.writes (Elt Ideal) f (⟨r, w⟩ :: L)) y = w x := hy ▸ View.read_writes_cons_emb v f r w L x

/-- The reset stores zero everywhere. -/
theorem pay1_apply (y : S8x128.Idx) : k0_pay1 (F := Ideal) y = Ideal.ofBits .f32 0x00000000#32 := by
  unfold k0_pay1
  show shapeCast S8x128 (broadcast S8x128 (Scalar.ofBits .f32 0x00000000#32)) _ y = _
  rw [shapeCast_self]
  rfl

variable (c : Dev nD) (i : grid0.Coords) (a2 : Memref sig .tc .vmem S1024x1001 .f32) (h2 : a2.IsWhole)
  (a3 : Memref sig .tc .vmem S1x8x128 .f32) (h3 : a3.IsWhole) (a4 : Memref sig .tc .vmem S8x128 .f32) (h4 : a4.IsWhole)

/-- A first block of a group: the cell ends at zero plus the block's sum of terms. -/
theorem scratch_A (hc0 : cond0_0 i) (hc1 : ¬cond0_1 i) (x0 : Vec Ideal S1024x1001 .f32) :
    sout0_A_0 c i a2 h2 a3 h3 a4 h4 hc0 hc1 x0 (ix2 (0 : Fin 8) (0 : Fin 128))
      = Ideal.ofBits .f32 0x00000000#32 + ∑ r : Fin 1024, rowLoss (fun k => x0 (ix2 r k)) := by
  unfold sout0_A_0
  rw [View.read_writes_eq_canon _ _ _ (scover0_A_0 c i a2 h2 a3 h3 a4 h4 hc0 hc1 x0)]
  unfold kernelRun0_A
  dsimp only
  sl_unfold_words
  rw [canon_head _ _ _ (ix2 (0 : Fin 1) (0 : Fin 1)) _ (emb00 _)]
  rw [View.readAt_eq_ld, h2.read_unread, View.ld_unit_zero (S := S1024x1001) hz2]
  rw [pay2_apply]
  refine congrArg (· + _) ?_
  rw [View.readCov_eq_canon', View.canon_unit_zero (S := S8x128) hz2]
  exact pay1_apply _

/-- A middle block: the cell ends at its previous contents plus the block's sum of terms. -/
theorem scratch_B (hc0 : ¬cond0_0 i) (hc1 : ¬cond0_1 i) (x0 : Vec Ideal S1024x1001 .f32) (xs0 : Vec Ideal S8x128 .f32) :
    sout0_B_0 c i a2 h2 a3 h3 a4 h4 hc0 hc1 x0 xs0 (ix2 (0 : Fin 8) (0 : Fin 128))
      = xs0 (ix2 (0 : Fin 8) (0 : Fin 128)) + ∑ r : Fin 1024, rowLoss (fun k => x0 (ix2 r k)) := by
  unfold sout0_B_0 kernelRun0_B
  dsimp only
  sl_unfold_words
  rw [read_writes_head _ _ _ _ _ (ix2 (0 : Fin 1) (0 : Fin 1)) _ (emb00 _)]
  rw [View.readAt_eq_ld, View.readAt_eq_ld, h2.read_unread, h4.read_unread, View.ld_unit_zero (S := S1024x1001) hz2]
  rw [pay2_apply]
  exact congrArg (fun y => xs0 y + _) (emb00 _)

/-- A last block of a group: the cell likewise; -/
theorem scratch_C (hc0 : ¬cond0_0 i) (hc1 : cond0_1 i) (x0 : Vec Ideal S1024x1001 .f32) (xs0 : Vec Ideal S8x128 .f32) :
    sout0_C_0 c i a2 h2 a3 h3 a4 h4 hc0 hc1 x0 xs0 (ix2 (0 : Fin 8) (0 : Fin 128))
      = xs0 (ix2 (0 : Fin 8) (0 : Fin 128)) + ∑ r : Fin 1024, rowLoss (fun k => x0 (ix2 r k)) := by
  unfold sout0_C_0 kernelRun0_C
  dsimp only
  sl_unfold_words
  rw [read_writes_head _ _ _ _ _ (ix2 (0 : Fin 1) (0 : Fin 1)) _ (emb00 _)]
  rw [View.readAt_eq_ld, View.readAt_eq_ld, h2.read_unread, h4.read_unread, View.ld_unit_zero (S := S1024x1001) hz2]
  rw [pay2_apply]
  exact congrArg (fun y => xs0 y + _) (emb00 _)

/-- and the output block holds the new cell times 2⁻¹⁸ at every position. -/
theorem out_C (hc0 : ¬cond0_0 i) (hc1 : cond0_1 i) (x0 : Vec Ideal S1024x1001 .f32) (xs0 : Vec Ideal S8x128 .f32)
    (j : S1x8x128.Idx) :
    out0_C_1 c i a2 h2 a3 h3 a4 h4 hc0 hc1 x0 xs0 j
      = (xs0 (ix2 (0 : Fin 8) (0 : Fin 128)) + ∑ r : Fin 1024, rowLoss (fun k => x0 (ix2 r k)))
          * Ideal.ofBits .f32 0x36800000#32 := by
  unfold out0_C_1
  rw [View.read_writes_eq_canon _ _ _ (cover0_C_1 c i a2 h2 a3 h3 a4 h4 hc0 hc1 x0 xs0)]
  unfold kernelRun0_C
  dsimp only
  sl_unfold_words
  rw [View.canon_unit_zero (S := S1x8x128) hz3, pay3_apply]
  refine congrArg (· * _) ?_
  rw [View.readCov_eq_canon']
  show View.canon _ ((Rect.unit (s := S8x128) ![0, 0] S1x1.size _).emb (ix2 (0 : Fin 1) (0 : Fin 1))) = _
  rw [View.canon_cons_emb]
  rw [View.readAt_eq_ld, View.readAt_eq_ld, h2.read_unread, h4.read_unread, View.ld_unit_zero (S := S1024x1001) hz2]
  rw [pay2_apply]
  exact congrArg (fun y => xs0 y + _) (emb00 _)

end Cert.KernelIdeal.Pieces

end
-- ==== Proof.Accum.lean ====
/-
  The accumulation across the grid. Block `t` of the input window is rows `1024·t … 1024·t + 1023` of the scores, so
  the sum of its rows' terms is the `t`-th block sum of the sequence of all terms. By induction on the block, the
  accumulator's cell after block `n` is the running sum of the block sums (reset at blocks 0 and 128), and at a last
  block of a group the output block holds that running sum times 2⁻¹⁸.
-/
import proofs.«138846_j1606317768943_2_alg».proof.Proof.Pieces

noncomputable section

namespace Cert.KernelIdeal.Accum

open Cert.KernelIdeal Cert.KernelIdeal.Gen Cert.KernelIdeal.Pieces Cert.Spec
open Idealize.ShloMosaic Idealize.ShloMosaic.TcCoe Idealize.ShloMosaic.ValueIdx Idealize.SL.Sem

variable (m : (ℓ : Loc nD τ sig) → Buf (Elt Ideal) ℓ)

/-- The scores: the first argument as launched. -/
abbrev scores (c : Dev nD) : S262144x1001.Idx → Ideal .f32 := m ((c : Thread nD τ).loc main_arg0)

/-- The input window's block index at point `t` is `(t, 0)`. -/
theorem index_in : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- An entry of block `t` is the entry of the scores `1024·t` rows further down. -/
theorem iblk_apply (c : Dev nD) (t : Fin cfg0.N) (x : S1024x1001.Idx) (k : S262144x1001.Idx)
    (hk0 : (k 0).val = 1024 * t.val + (x 0).val) (hk1 : (k 1).val = (x 1).val) :
    (iblk m c 0 t : Vec Ideal S1024x1001 .f32) x = scores m c k := by
  have hi := index_in t
  unfold iblk
  rw [View.read_apply]
  show V m c main_arg0 _ = m (c.tc.loc main_arg0) _
  rw [V_main_arg0]
  refine congrArg (m (c.tc.loc main_arg0)) (funext fun a => Fin.ext ?_)
  match a with
  | ⟨0, _⟩ => show win0_0.index t 0 * 1024 + 1 * (x 0).val = (k 0).val; rw [hi.1, hk0]; omega
  | ⟨1, _⟩ => show win0_0.index t 1 * 1001 + 1 * (x 1).val = (k 1).val; rw [hi.2, hk1]; omega

/-- Row `r` of block `t` is row `1024·t + r` of the scores. -/
theorem block_row (c : Dev nD) (t : Fin cfg0.N) (r : Fin 1024) :
    (fun k : Fin 1001 => (iblk m c 0 t : Vec Ideal S1024x1001 .f32) (ix2 r k)) = rowAt (scores m c) (1024 * t.val + r.val) := by
  have hN : t.val < 256 := lt_of_lt_of_eq t.isLt (show cfg0.N = 256 from N_0)
  have hlt : 1024 * t.val + r.val < 262144 := by have := r.isLt; omega
  rw [rowAt_of_lt _ _ hlt]
  funext k
  exact iblk_apply m c t (ix2 r k) (ix2 ⟨1024 * t.val + r.val, hlt⟩ k) rfl rfl

/-- The sum of the terms of block `t`. -/
def blockTerms (c : Dev nD) (t : ℕ) : EReal := blockSum (term (scores m c)) 1024 t

theorem block_sum (c : Dev nD) (t : Fin cfg0.N) :
    ∑ r : Fin 1024, rowLoss (fun k => (iblk m c 0 t : Vec Ideal S1024x1001 .f32) (ix2 r k)) = blockTerms m c t.val := by
  unfold blockTerms blockSum
  refine Finset.sum_congr rfl fun r _ => ?_
  rw [block_row]
  rfl

/-- The running sum of the block sums, reset every 128 blocks, from the zero the reset stores. -/
abbrev acc (c : Dev nD) (n : ℕ) : EReal := running (Ideal.ofBits .f32 0x00000000#32) 128 (blockTerms m c) n

/-- The accumulator's cell after block `n` is the running sum. -/
theorem cell_eq (c : Dev nD) : ∀ (n : ℕ) (h : n < cfg0.N),
    (outsAt0 m c n h).2 (ix2 (0 : Fin 8) (0 : Fin 128)) = acc m c n
  | 0, h => by
    have h0 : (⟨0, h⟩ : Fin cfg0.N).val % 128 = 0 := rfl
    have h1 : ¬(⟨0, h⟩ : Fin cfg0.N).val % 128 = 127 := by show ¬(0 % 128 = 127); decide
    rw [outsAt0_A m c ⟨0, h⟩ h0 h1]
    dsimp only
    refine (scratch_A c (grid0.coords ⟨0, h⟩) (ms0_0 ⟨0, h⟩) (hs0_0 ⟨0, h⟩) (ms0_1 ⟨0, h⟩) (hs0_1 ⟨0, h⟩) scM0_0
      (Memref.isWhole_whole _) _ _ (iblk m c 0 ⟨0, h⟩)).trans ?_
    rw [block_sum]
    rfl
  | n + 1, h => by
    by_cases h0 : (n + 1) % 128 = 0
    · have h1 : ¬(n + 1) % 128 = 127 := by omega
      rw [outsAt0_A m c ⟨n + 1, h⟩ h0 h1]
      dsimp only
      refine (scratch_A c (grid0.coords ⟨n + 1, h⟩) (ms0_0 ⟨n + 1, h⟩) (hs0_0 ⟨n + 1, h⟩) (ms0_1 ⟨n + 1, h⟩)
        (hs0_1 ⟨n + 1, h⟩) scM0_0 (Memref.isWhole_whole _) _ _ (iblk m c 0 ⟨n + 1, h⟩)).trans ?_
      rw [block_sum]
      exact (running_reset _ 128 _ (n + 1) h0).symm
    · by_cases h1 : (n + 1) % 128 = 127
      · rw [outsAt0_C m c ⟨n + 1, h⟩ h0 h1]
        dsimp only
        refine (scratch_C c (grid0.coords ⟨n + 1, h⟩) (ms0_0 ⟨n + 1, h⟩) (hs0_0 ⟨n + 1, h⟩) (ms0_1 ⟨n + 1, h⟩)
          (hs0_1 ⟨n + 1, h⟩) scM0_0 (Memref.isWhole_whole _) _ _ (iblk m c 0 ⟨n + 1, h⟩) _).trans ?_
        rw [block_sum]
        show (outsAt0 m c n _).2 _ + _ = _
        rw [cell_eq c n]
        exact (running_step _ 128 _ (n + 1) h0).symm
      · rw [outsAt0_B m c ⟨n + 1, h⟩ h0 h1]
        dsimp only
        refine (scratch_B c (grid0.coords ⟨n + 1, h⟩) (ms0_0 ⟨n + 1, h⟩) (hs0_0 ⟨n + 1, h⟩) (ms0_1 ⟨n + 1, h⟩)
          (hs0_1 ⟨n + 1, h⟩) scM0_0 (Memref.isWhole_whole _) _ _ (iblk m c 0 ⟨n + 1, h⟩) _).trans ?_
        rw [block_sum]
        show (outsAt0 m c n _).2 _ + _ = _
        rw [cell_eq c n]
        exact (running_step _ 128 _ (n + 1) h0).symm

/-- At a last block of a group the output block holds the running sum times 2⁻¹⁸, everywhere. -/
theorem out_eq (c : Dev nD) (t : Fin cfg0.N) (h1 : t.val % 128 = 127) (j : S1x8x128.Idx) :
    (outsAt0 m c t.val t.isLt).1 j = acc m c t.val * Ideal.ofBits .f32 0x36800000#32 := by
  have h0 : ¬t.val % 128 = 0 := by omega
  have hpos : t.val - 1 + 1 = t.val := by omega
  rw [outsAt0_C m c t h0 h1]
  dsimp only
  refine (out_C c (grid0.coords t) (ms0_0 t) (hs0_0 t) (ms0_1 t) (hs0_1 t) scM0_0 (Memref.isWhole_whole _) _ _
    (iblk m c 0 t) _ j).trans ?_
  rw [block_sum, cell_eq m c (t.val - 1)]
  exact congrArg (· * _) (running_step _ 128 _ t.val h0).symm

end Cert.KernelIdeal.Accum

end
-- ==== Proof.KernelValue.lean ====
/-
  The kernel's result. The output array has two 8 × 128 blocks; block `g` is written back once, after the last block
  of group `g`, and holds the group's running sum times 2⁻¹⁸ at every position. The operations after the launch take
  the two entries at (g, 0, 0) and add them, from zero. With 2⁻¹⁸ = 1 / 262144 that is the block-wise arrangement of
  the mean, which equals the plain one.
-/
import proofs.«138846_j1606317768943_2_alg».proof.Proof.Accum
import Idealize.ShloMosaic.Lib.StableHlo.Run

noncomputable section

namespace Cert.KernelIdeal.KValue

open Cert.KernelIdeal Cert.KernelIdeal.Gen Cert.KernelIdeal.Accum Cert.Spec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The pattern of 2⁻¹⁸ denotes 1 / 262144. -/
theorem ofBits_scale : Ideal.ofBits .f32 0x36800000#32 = ((1 / 262144 : ℝ) : EReal) := by
  simp [Ideal.ofBits, Ideal.ieee, -EReal.coe_mul]; norm_num

/-- The output array as one function of its index: group `g`'s running sum, scaled. -/
def outFn (c : Dev nD) : S2x8x128.Idx → Ideal .f32 :=
  fun i => acc m c (128 * (i 0).val + 127) * Ideal.ofBits .f32 0x36800000#32

abbrev outArr (c : Dev nD) : Buf (Elt Ideal) ((c : Thread nD τ).loc main_v0) := outFn m c

/-- The output window's block at point `t` starts at `(t / 128, 0, 0)` and is whole. -/
theorem offs_out : ∀ t : Fin cfg0.N, win0_1.index t (0 : Fin 3) * win0_1.size (0 : Fin 3) = t.val / 128
    ∧ win0_1.index t (1 : Fin 3) * win0_1.size (1 : Fin 3) = 0 ∧ win0_1.index t (2 : Fin 3) * win0_1.size (2 : Fin 3) = 0 :=
  (by decide +kernel : ∀ t : Fin grid0.N, win0_1.index t (0 : Fin 3) * win0_1.size (0 : Fin 3) = t.val / 128
    ∧ win0_1.index t (1 : Fin 3) * win0_1.size (1 : Fin 3) = 0 ∧ win0_1.index t (2 : Fin 3) * win0_1.size (2 : Fin 3) = 0)

theorem xsize_out : ∀ t : Fin cfg0.N, win0_1.xsize (grid0.coords t) (0 : Fin 3) = 1
    ∧ win0_1.xsize (grid0.coords t) (1 : Fin 3) = 8 ∧ win0_1.xsize (grid0.coords t) (2 : Fin 3) = 128 :=
  (by decide +kernel : ∀ t : Fin grid0.N, win0_1.xsize (grid0.coords t) (0 : Fin 3) = 1
    ∧ win0_1.xsize (grid0.coords t) (1 : Fin 3) = 8 ∧ win0_1.xsize (grid0.coords t) (2 : Fin 3) = 128)

/-- Every write-back writes its block of the one function. -/
theorem flushed_eq (c : Dev nD) (t : Fin cfg0.N) (hf : (cfg0.win 1).flush t = true) :
    (dats m 0 c).flushed 1 t = ((cfg0.win 1).blk t).view.read (Elt Ideal) (outArr m c) := by
  have h127 : t.val % 128 = 127 := (flush0_1 t).mp hf
  have ho := offs_out t
  have hx := xsize_out t
  funext y
  show (cfg0.win 1).cut (grid0.coords t) ((dats m 0 c).after 1 t) y = _
  rw [after0_1]
  show (outsAt0 m c t.val t.isLt).1 _ = _
  rw [out_eq m c t h127, View.read_apply]
  show _ = outFn m c (((cfg0.win 1).blk t).view.emb y)
  unfold outFn
  have hy : (y 0).val < win0_1.xsize (grid0.coords t) (0 : Fin 3) := (y 0).isLt
  rw [hx.1] at hy
  have e : ((((cfg0.win 1).blk t).view.emb y) 0).val = t.val / 128 := by
    show win0_1.index t 0 * win0_1.size 0 + 1 * (y 0).val = _
    rw [ho.1]; omega
  rw [e, show 128 * (t.val / 128) + 127 = t.val from by omega]

/-- The two write-backs cover the output array, so it ends holding the one function. -/
theorem final_out (c : Dev nD) : (dats m 0 c).arrAt 1 cfg0.N = outArr m c :=
  (dats m 0 c).arrAt_eq_of_cover 1 (outArr m c) (flushed_eq m c) fun i => by
    have h0 : (i 0 : Nat) < 2 := (i 0).isLt
    have h1 : (i 1 : Nat) < 8 := (i 1).isLt
    have h2 : (i 2 : Nat) < 128 := (i 2).isLt
    have hN : cfg0.N = 256 := N_0
    have ht : 128 * (i 0 : Nat) + 127 < cfg0.N := by rw [hN]; omega
    refine ⟨⟨128 * (i 0 : Nat) + 127, ht⟩, (flush0_1 _).mpr (by show (128 * (i 0 : Nat) + 127) % 128 = 127; omega), ?_⟩
    have ho := offs_out ⟨128 * (i 0 : Nat) + 127, ht⟩
    have hx := xsize_out ⟨128 * (i 0 : Nat) + 127, ht⟩
    show i ∈ ((View.whole main_v0).slice (win0_1.rect ⟨128 * (i 0 : Nat) + 127, ht⟩)).set
    rw [View.set_slice_whole, Rect.mem_set_unit]
    intro a
    match a with
    | ⟨0, _⟩ =>
      show win0_1.index ⟨128 * (i 0 : Nat) + 127, ht⟩ 0 * win0_1.size 0 ≤ (i 0 : Nat)
        ∧ (i 0 : Nat) < win0_1.index ⟨128 * (i 0 : Nat) + 127, ht⟩ 0 * win0_1.size 0 + win0_1.xsize (grid0.coords ⟨128 * (i 0 : Nat) + 127, ht⟩) 0
      rw [ho.1, hx.1]; show (128 * (i 0 : Nat) + 127) / 128 ≤ (i 0 : Nat) ∧ (i 0 : Nat) < (128 * (i 0 : Nat) + 127) / 128 + 1; omega
    | ⟨1, _⟩ =>
      show win0_1.index ⟨128 * (i 0 : Nat) + 127, ht⟩ 1 * win0_1.size 1 ≤ (i 1 : Nat)
        ∧ (i 1 : Nat) < win0_1.index ⟨128 * (i 0 : Nat) + 127, ht⟩ 1 * win0_1.size 1 + win0_1.xsize (grid0.coords ⟨128 * (i 0 : Nat) + 127, ht⟩) 1
      rw [ho.2.1, hx.2.1]; omega
    | ⟨2, _⟩ =>
      show win0_1.index ⟨128 * (i 0 : Nat) + 127, ht⟩ 2 * win0_1.size 2 ≤ (i 2 : Nat)
        ∧ (i 2 : Nat) < win0_1.index ⟨128 * (i 0 : Nat) + 127, ht⟩ 2 * win0_1.size 2 + win0_1.xsize (grid0.coords ⟨128 * (i 0 : Nat) + 127, ht⟩) 2
      rw [ho.2.2, hx.2.2]; omega

/-- The operations after the launch, as one term of the output array. -/
theorem tail_after (W : Valuation τ sig (Elt Ideal)) :
    StableHlo.after (hostOps1 (F := Ideal)) W (Proc.devRef .tc main_v3)
      = Host.reduceAdd (F := Ideal) (shapeCast S2 (extractStridedSlice S2x1x1 ![0, 0, 0] (W (Proc.devRef .tc main_v0))
          slices_S2x8x128_S2x1x1_0_0_0) shapeCasts_S2x1x1_S2) (constant (F := Ideal) S_ .f32 0x00000000#32)
          reducesTo_S2_S_d0 h_S_ := by
  after_results
  rfl

/-- A sum over the rank-1 index set of extent `n`, entry by entry. -/
theorem sum_entries (n : ℕ) (f : (⟨1, ![n]⟩ : Shape).Idx → EReal) : ∑ j, f j = ∑ k : Fin n, f (ix1 k) :=
  Fintype.sum_equiv
    { toFun := fun j => (j 0 : Fin n), invFun := fun r => ix1 r,
      left_inv := fun j => (eq_ix1 j).symm, right_inv := fun r => rfl } _ _ (fun j => congrArg f (eq_ix1 j))

/-- The two scaled running sums, added from zero. -/
def twoGroups (c : Dev nD) : EReal :=
  Ideal.ofBits .f32 0x00000000#32 + ∑ g : Fin 2, acc m c (128 * g.val + 127) * Ideal.ofBits .f32 0x36800000#32

/-- What the result buffer holds after the operations that follow the launch. -/
theorem tail_value (c : Dev nD) (i : S_.Idx) :
    Pipeline.afterTail₀ cfgs (dats m) 0 (V0 m) [hostOps1] c main_v3 i = twoGroups m c := by
  have hW : Pipeline.withArrays (cfgs 0).spec c (V0 m c) (fun w => (dats m 0 c).arrAt w (cfgs 0).N) (Proc.devRef .tc main_v0)
      = outArr m c :=
    (Pipeline.withArrays_arr spec0 launch0.win.arr_inj c _ _ 1).trans (final_out m c)
  unfold Pipeline.afterTail₀
  show StableHlo.after hostOps1 _ (Proc.devRef .tc main_v3) i = _
  rw [tail_after, hW]
  simp only [Host.reduceAdd, Ideal.hostReduceAdd_def]
  refine (Ideal.hostReduceAdd_total reducesTo_S2_S_d0 (fun b => b.elim0) _ _ i).trans ?_
  unfold twoGroups
  refine congrArg (Ideal.ofBits .f32 0x00000000#32 + ·) ((sum_entries 2 _).trans (Finset.sum_congr rfl fun g _ => ?_))
  rw [shapeCast_apply _ shapeCasts_S2x1x1_S2 (ix1 g) (ix3 g (0 : Fin 1) (0 : Fin 1)) (by
      rewrite [Shape.rowMajor_val_one]; fin_cases g <;> rfl),
    extractStridedSlice_apply ![0, 0, 0] _ slices_S2x8x128_S2x1x1_0_0_0 (ix3 g (0 : Fin 1) (0 : Fin 1))
      (ix3 g (0 : Fin 8) (0 : Fin 128)) (fun a => match a with
        | ⟨0, _⟩ => by show g.val = 0 + g.val; omega
        | ⟨1, _⟩ => rfl
        | ⟨2, _⟩ => rfl)]
  rfl

/-- The block-wise arrangement is the mean. -/
theorem twoGroups_eq (c : Dev nD) : twoGroups m c = mean (scores m c) := by
  unfold twoGroups mean
  show Ideal.ofBits .f32 0x00000000#32 + ∑ g : Fin 2, running (Ideal.ofBits .f32 0x00000000#32) 128 (blockTerms m c)
    (128 * g.val + 127) * Ideal.ofBits .f32 0x36800000#32 = _
  rw [Ideal.ofBits_zero_f32, ofBits_scale, Fin.sum_univ_eq_sum_range
    (fun g => running 0 128 (blockTerms m c) (128 * g + 127) * ((1 / 262144 : ℝ) : EReal)) 2]
  exact blocks_mean (term (scores m c)) 2 128 1024 (by norm_num) 262144 (by norm_num)

/-- The kernel's run, read: the result at the mean, the arguments unchanged. -/
theorem run : θ_run defs (onTc (τ := τ) (main (F := Ideal))) ⟨m, fun _ => 0, ρ⟩ fun r => ∀ c : Dev nD,
      r.2.mem ((c.tc : Thread nD τ).loc main_v3) = (fun _ => mean (scores m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans
        (funext fun i => (tail_value m c i).trans (twoGroups_eq m c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.KValue

end
-- ==== Proof.lean ====
/-
  The claim: a Pallas kernel that streams a 262144 × 1001 array of scores once and returns the mean, over the rows, of
  `log (1 − p · w)` — `p` the softmax probability of the last class, `w` a guard just below one where `p` is exactly one —
  computes, on the extended reals, what the plain jnp program computes.

  Both programs take each row's greatest score, the shifted exponentials, their sum, the last column's quotient, the
  guard and the logarithm: the same term for the same row (Spec.lean's `rowLoss`; RefValue.lean reads the reference's
  chain at a row, Payload.lean the kernel body's at a row of a block). They differ in how the 262144 terms are added.
  The reference adds them all, from zero, and divides by 262144. The kernel walks 256 blocks of 1024 rows in two groups
  of 128: a one-cell accumulator is reset at the first block of a group, every block adds its 1024 terms to it
  (Pieces.lean, Accum.lean: by induction on the block the cell holds the running sum), the last block of a group writes
  the cell times 2⁻¹⁸ into the group's output block, and the operations after the launch add the two groups' values,
  from zero (KernelValue.lean). The two agree (Spec.lean's `blocks_mean`): sums of extended reals may be regrouped
  freely, the factor 2⁻¹⁸ is finite and nonnegative, so it distributes over any sum, and dividing by 262144 = 2¹⁸ is
  multiplying by it. No finiteness of the scores is used.

  The three programs run to completion with their arguments unchanged: the kernel's two printed forms by their generated
  frame runs, the reference by its generated straight-line run. The idealization rewrote nothing, so there is nothing
  to preserve.
-/
import proofs.«138846_j1606317768943_2_alg».proof.Defs
import proofs.«138846_j1606317768943_2_alg».proof.Proof.Gen.Kernel
import proofs.«138846_j1606317768943_2_alg».proof.Proof.Gen.Kernel.Frame
import proofs.«138846_j1606317768943_2_alg».proof.Proof.Gen.KernelIdeal
import proofs.«138846_j1606317768943_2_alg».proof.Proof.Gen.KernelIdeal.Frame
import proofs.«138846_j1606317768943_2_alg».proof.Proof.Gen.ReferenceIdeal
import proofs.«138846_j1606317768943_2_alg».proof.Proof.Gen.Pre_finite_inputs
import proofs.«138846_j1606317768943_2_alg».proof.Proof.Gen.ReferenceIdeal.Run
import proofs.«138846_j1606317768943_2_alg».proof.Proof.Gen.ReferenceIdeal.Read
import proofs.«138846_j1606317768943_2_alg».proof.Proof.RefValue
import proofs.«138846_j1606317768943_2_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the mean of the rows' terms of the same scores. -/
theorem algebraic : Cert.algebraic_KernelIdeal_ReferenceIdeal := by
  intro m ρ m' ρ' _ hagree
  refine ⟨fun c => (fun _ => Cert.Spec.mean (Cert.KernelIdeal.Accum.scores m c)), Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq]
  funext i
  rw [Cert.ReferenceIdeal.RefValue.result_eq, (hagree c).1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
